-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x42x42 : Shape := ⟨4, ![32, 64, 42, 42]⟩
abbrev S32x25x64x42x42 : Shape := ⟨5, ![32, 25, 64, 42, 42]⟩
abbrev S_ : Shape := ⟨0, ![]⟩

class Facts : Prop where
  bcast_S_S32x64x42x42 : S_.BroadcastsInDim S32x64x42x42 (![] : Fin 0 → Fin S32x64x42x42.rank)
  reducesTo_S32x64x42x42_S_d0_1_2_3 : S32x64x42x42.ReducesTo [0, 1, 2, 3] S_
  h_S_ : 0 < S_.numel
  bcast_S_S32x25x64x42x42 : S_.BroadcastsInDim S32x25x64x42x42 (![] : Fin 0 → Fin S32x25x64x42x42.rank)
  reducesTo_S32x25x64x42x42_S_d0_1_2_3_4 : S32x25x64x42x42.ReducesTo [0, 1, 2, 3, 4] S_

variable [Facts]

def fn {F : FTy → Type} [FloatOps F] (main_arg0 : FVec F S32x64x42x42 .f32) (main_arg1 : FVec F S32x25x64x42x42 .f32) : IVec S_ 1 :=
  let main_v0 : FVec F S32x64x42x42 .f32 := Host.absf main_arg0
  let main_cst : FVec F S_ .f32 := constant S_ .f32 0x7F800000#32
  let main_v1 : FVec F S32x64x42x42 .f32 := broadcastInDim S32x64x42x42 ![] bcast_S_S32x64x42x42 main_cst
  let main_v2 : IVec S32x64x42x42 1 := cmpf .olt main_v0 main_v1
  let main_c : IVec S_ 1 := constantI S_ 1 1#1
  let main_v3 : IVec S_ 1 := (fun x v => Host.reduce IntOp.andi x v reducesTo_S32x64x42x42_S_d0_1_2_3 h_S_) main_v2 main_c
  let main_v4 : FVec F S32x25x64x42x42 .f32 := Host.absf main_arg1
  let main_cst_0 : FVec F S_ .f32 := constant S_ .f32 0x7F800000#32
  let main_v5 : FVec F S32x25x64x42x42 .f32 := broadcastInDim S32x25x64x42x42 ![] bcast_S_S32x25x64x42x42 main_cst_0
  let main_v6 : IVec S32x25x64x42x42 1 := cmpf .olt main_v4 main_v5
  let main_c_1 : IVec S_ 1 := constantI S_ 1 1#1
  let main_v7 : IVec S_ 1 := (fun x v => Host.reduce IntOp.andi x v reducesTo_S32x25x64x42x42_S_d0_1_2_3_4 h_S_) main_v6 main_c_1
  let main_v8 : IVec S_ 1 := andi main_v3 main_v7
  main_v8
-- ==== Kernel.lean ====
abbrev S32x64x42x42 : Shape := ⟨4, ![32, 64, 42, 42]⟩
abbrev S32x25x64x42x42 : Shape := ⟨5, ![32, 25, 64, 42, 42]⟩
abbrev S32x64x1764 : Shape := ⟨3, ![32, 64, 1764]⟩
abbrev S32x25x64x1764 : Shape := ⟨4, ![32, 25, 64, 1764]⟩
abbrev S32x25x1764 : Shape := ⟨3, ![32, 25, 1764]⟩
abbrev S1x64x1764 : Shape := ⟨3, ![1, 64, 1764]⟩
abbrev S1x25x64x1764 : Shape := ⟨4, ![1, 25, 64, 1764]⟩
abbrev S1x25x1764 : Shape := ⟨3, ![1, 25, 1764]⟩
abbrev S25x1764 : Shape := ⟨2, ![25, 1764]⟩
abbrev S1x16x1764 : Shape := ⟨3, ![1, 16, 1764]⟩
abbrev S16x1764 : Shape := ⟨2, ![16, 1764]⟩
abbrev S1x25x16x1764 : Shape := ⟨4, ![1, 25, 16, 1764]⟩
abbrev S25x16x1764 : Shape := ⟨3, ![25, 16, 1764]⟩
abbrev S32x44100 : Shape := ⟨2, ![32, 44100]⟩

abbrev nBuf : Space → Nat
  | .hbm => 6
  | .vmem => 7
  | .smem => 0
  | _ => 0

abbrev bufTy : (tb : Table) → Fin (tcTables nBuf tb) → BufTy
  | .hbm, ⟨0, _⟩ => ⟨S32x64x42x42, .f32⟩
  | .hbm, ⟨1, _⟩ => ⟨S32x25x64x42x42, .f32⟩
  | .hbm, ⟨2, _⟩ => ⟨S32x64x1764, .f32⟩
  | .hbm, ⟨3, _⟩ => ⟨S32x25x64x1764, .f32⟩
  | .hbm, ⟨4, _⟩ => ⟨S32x25x1764, .f32⟩
  | .hbm, ⟨5, _⟩ => ⟨S32x44100, .f32⟩
  | .local _ .vmem, ⟨0, _⟩ => ⟨S1x64x1764, .f32⟩
  | .local _ .vmem, ⟨1, _⟩ => ⟨S1x64x1764, .f32⟩
  | .local _ .vmem, ⟨2, _⟩ => ⟨S1x25x64x1764, .f32⟩
  | .local _ .vmem, ⟨3, _⟩ => ⟨S1x25x64x1764, .f32⟩
  | .local _ .vmem, ⟨4, _⟩ => ⟨S1x25x1764, .f32⟩
  | .local _ .vmem, ⟨5, _⟩ => ⟨S1x25x1764, .f32⟩
  | .local _ .vmem, ⟨6, _⟩ => ⟨S25x1764, .f32⟩
  | _, _ => ⟨S32x64x42x42, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c16_i32 : BitVec 32 := 16#32
  let v4 : BitVec 32 := Scalar.muli c0_i32 c16_i32
  v4
def k0_off1 (c0_i32 : BitVec 32) : Fin 3 → Nat :=
  let c0_1 : Index := 0#32
  let c16_i32 : BitVec 32 := 16#32
  let v4 : BitVec 32 := Scalar.muli c0_i32 c16_i32
  let v5 : BitVec 32 := v4
  let v6 : Index := Scalar.indexCast v5
  let c0_2 : Index := 0#32
  ![0, v6.toNat, 0]
def k0_off2 (c0_i32 : BitVec 32) : Fin 4 → Nat :=
  let c0_3 : Index := 0#32
  let c0_4 : Index := 0#32
  let c16_i32 : BitVec 32 := 16#32
  let v4 : BitVec 32 := Scalar.muli c0_i32 c16_i32
  let v5 : BitVec 32 := v4
  let v9 : Index := Scalar.indexCast v5
  let c0_5 : Index := 0#32
  ![0, 0, v9.toNat, 0]
def k0_mult2 : BitVec 32 :=
  let c1_i32 : BitVec 32 := 1#32
  let c16_i32_11 : BitVec 32 := 16#32
  let v22 : BitVec 32 := Scalar.muli c1_i32 c16_i32_11
  v22
def k0_mult3 : BitVec 32 :=
  let c2_i32 : BitVec 32 := 2#32
  let c16_i32_22 : BitVec 32 := 16#32
  let v40 : BitVec 32 := Scalar.muli c2_i32 c16_i32_22
  v40
def k0_mult4 : BitVec 32 :=
  let c3_i32 : BitVec 32 := 3#32
  let c16_i32_33 : BitVec 32 := 16#32
  let v58 : BitVec 32 := Scalar.muli c3_i32 c16_i32_33
  v58
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1764 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x25x64x1764 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x25x1764 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x64x42x42_S32x64x1764 : S32x64x42x42.ShapeCasts S32x64x1764
  shapeCasts_S32x25x64x42x42_S32x25x64x1764 : S32x25x64x42x42.ShapeCasts S32x25x64x1764
  inb_S25x1764_S25x1764_0_0 : ∀ a, (![0, 0] : Fin 2 → Nat) a + S25x1764.size a ≤ S25x1764.size a
  h_S25x1764 : 0 < S25x1764.numel
  shapeCasts_S25x1764_S25x1764 : S25x1764.ShapeCasts S25x1764
  h_S1x16x1764 : 0 < S1x16x1764.numel
  shapeCasts_S1x16x1764_S16x1764 : S1x16x1764.ShapeCasts S16x1764
  h_S1x25x16x1764 : 0 < S1x25x16x1764.numel
  shapeCasts_S1x25x16x1764_S25x16x1764 : S1x25x16x1764.ShapeCasts S25x16x1764
  shapeCasts_S16x1764_S1x16x1764 : S16x1764.ShapeCasts S1x16x1764
  broadcasts_S1x16x1764_S25x16x1764 : S1x16x1764.Broadcasts S25x16x1764
  reduces_S25x16x1764_S25x1764 : S25x16x1764.Reduces [1] S25x1764
  inb_S1x25x1764_S1x25x1764_0_0_0 : ∀ a, (![0, 0, 0] : Fin 3 → Nat) a + S1x25x1764.size a ≤ S1x25x1764.size a
  h_S1x25x1764 : 0 < S1x25x1764.numel
  shapeCasts_S1x25x1764_S25x1764 : S1x25x1764.ShapeCasts S25x1764
  shapeCasts_S25x1764_S1x25x1764 : S25x1764.ShapeCasts S1x25x1764
  shapeCasts_S32x25x1764_S32x44100 : S32x25x1764.ShapeCasts S32x44100
  hrank0 : 0 < grid0.rank
  k0_mult1_dvd : 16 ∣ k0_mult1.toNat
  k0_off1_inb : ∀ (r : Fin 4), ∀ a, (k0_off1 (BitVec.ofNat 32 r.val)) a + S1x16x1764.size a ≤ S1x64x1764.size a
  k0_off2_inb : ∀ (r : Fin 4), ∀ a, (k0_off2 (BitVec.ofNat 32 r.val)) a + S1x25x16x1764.size a ≤ S1x25x64x1764.size a
  k0_mult2_dvd : 16 ∣ k0_mult2.toNat
  k0_mult3_dvd : 16 ∣ k0_mult3.toNat
  k0_mult4_dvd : 16 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1764.size a ≤ S32x64x1764.size a
  hwx0_0 : ∀ i : grid0.Coords, EltTy.bits .f32 = 32 ∨ (Rect.block (s := S32x64x1764) S1x64x1764.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x25x64x1764.size a ≤ S32x25x64x1764.size a
  hwx0_1 : ∀ i : grid0.Coords, EltTy.bits .f32 = 32 ∨ (Rect.block (s := S32x25x64x1764) S1x25x64x1764.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x25x1764.size a ≤ S32x25x1764.size a
  hwx0_2 : ∀ i : grid0.Coords, EltTy.bits .f32 = 32 ∨ (Rect.block (s := S32x25x1764) S1x25x1764.size (cc0_transform_2 i) (hinb0_2 i)).WholeWords (EltTy.packing .f32)

variable [Facts₀]

abbrev win0_0 : Pipeline.Window sig grid0 :=
  Pipeline.Window.ofSpec (Memref.whole main_v0) S1x64x1764.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x25x64x1764.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x25x1764.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x64x42x42 : Shape := ⟨4, ![32, 64, 42, 42]⟩
abbrev S32x25x64x42x42 : Shape := ⟨5, ![32, 25, 64, 42, 42]⟩
abbrev S32x1x64x42x42 : Shape := ⟨5, ![32, 1, 64, 42, 42]⟩
abbrev S_ : Shape := ⟨0, ![]⟩
abbrev S32x25x42x42 : Shape := ⟨4, ![32, 25, 42, 42]⟩
abbrev S32x44100 : Shape := ⟨2, ![32, 44100]⟩

abbrev nBuf : Space → Nat
  | .hbm => 10
  | .vmem => 0
  | .smem => 0
  | _ => 0

abbrev bufTy : (tb : Table) → Fin (tcTables nBuf tb) → BufTy
  | .hbm, ⟨0, _⟩ => ⟨S32x64x42x42, .f32⟩
  | .hbm, ⟨1, _⟩ => ⟨S32x25x64x42x42, .f32⟩
  | .hbm, ⟨2, _⟩ => ⟨S32x1x64x42x42, .f32⟩
  | .hbm, ⟨3, _⟩ => ⟨S32x25x64x42x42, .f32⟩
  | .hbm, ⟨4, _⟩ => ⟨S32x25x64x42x42, .f32⟩
  | .hbm, ⟨5, _⟩ => ⟨S32x25x64x42x42, .f32⟩
  | .hbm, ⟨6, _⟩ => ⟨S_, .f32⟩
  | .hbm, ⟨7, _⟩ => ⟨S32x25x42x42, .f32⟩
  | .hbm, ⟨8, _⟩ => ⟨S32x25x42x42, .f32⟩
  | .hbm, ⟨9, _⟩ => ⟨S32x44100, .f32⟩
  | _, _ => ⟨S32x64x42x42, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S32x64x42x42_S32x1x64x42x42_0_2_3_4 : S32x64x42x42.BroadcastsInDim S32x1x64x42x42 (![0, 2, 3, 4] : Fin 4 → Fin S32x1x64x42x42.rank)
  bcast_S32x1x64x42x42_S32x25x64x42x42_0_1_2_3_4 : S32x1x64x42x42.BroadcastsInDim S32x25x64x42x42 (![0, 1, 2, 3, 4] : Fin 5 → Fin S32x25x64x42x42.rank)
  reducesTo_S32x25x64x42x42_S32x25x42x42_d2 : S32x25x64x42x42.ReducesTo [2] S32x25x42x42
  h_S_ : 0 < S_.numel
  shapeCasts_S32x25x42x42_S32x44100 : S32x25x42x42.ShapeCasts S32x44100

variable [Facts₀]

class Facts : Prop extends Facts₀ where

variable [Facts]
-- ==== Proof.Body.lean ====
/-
  What one grid point's body leaves in the output block, as one term over the two input blocks.

  The body zeroes an accumulator of shape [25, 1764], then four times loads a chunk of sixteen channels of each
  input block, adds the chunk's sum of squared differences into the accumulator, and at the end stores the
  accumulator's square root as the [1, 25, 1764] output block. Each of the four accumulation steps is the same
  function `step` of (chunk of the first input, chunk of the second input, accumulator so far).
-/
import proofs.«109841_j27324581937366_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Sixteen channels of the first input block, from channel `o`. -/
abbrev chunkA (o : Nat) (h : ∀ a, (![0, o, 0] : Fin 3 → Nat) a + S1x16x1764.size a ≤ S1x64x1764.size a)
    (x0 : Vec F S1x64x1764 .f32) : Vec F S1x16x1764 .f32 :=
  View.ld x0 (Rect.unit (s := S1x64x1764) ![0, o, 0] S1x16x1764.size h)

/-- Sixteen channels of the second input block, from channel `o`, for every support. -/
abbrev chunkB (o : Nat) (h : ∀ a, (![0, 0, o, 0] : Fin 4 → Nat) a + S1x25x16x1764.size a ≤ S1x25x64x1764.size a)
    (x1 : Vec F S1x25x64x1764 .f32) : Vec F S1x25x16x1764 .f32 :=
  View.ld x1 (Rect.unit (s := S1x25x64x1764) ![0, 0, o, 0] S1x25x16x1764.size h)

/-- One accumulation step: the accumulator plus the chunk's sum, over its sixteen channels, of the squared
    differences. -/
abbrev step (a : Vec F S1x16x1764 .f32) (b : Vec F S1x25x16x1764 .f32) (acc : Vec F S25x1764 .f32) : FVec F S25x1764 .f32 :=
  k0_pay4 a b acc

/-- The second, third and fourth steps are printed in other groupings of the same operations. -/
theorem step_two (a : Vec F S1x16x1764 .f32) (b : Vec F S1x25x16x1764 .f32) (acc : Vec F S25x1764 .f32) :
    k0_pay6 (k0_pay5 a b) acc = step a b acc := rfl
theorem step_three (a : Vec F S1x16x1764 .f32) (b : Vec F S1x25x16x1764 .f32) (acc : Vec F S25x1764 .f32) :
    k0_pay7 a b acc = step a b acc := rfl
theorem step_four (a : Vec F S1x16x1764 .f32) (b : Vec F S1x25x16x1764 .f32) (acc : Vec F S25x1764 .f32) :
    k0_pay1 (k0_pay8 a b) acc = step a b acc := rfl

/-- The output block after the body: the square root of the accumulator after the four steps from zero. -/
def blockOut (x0 : Vec F S1x64x1764 .f32) (x1 : Vec F S1x25x64x1764 .f32) : Vec F S1x25x1764 .f32 :=
  k0_pay2 (step (chunkA 48 (by decide) x0) (chunkB 48 (by decide) x1)
    (step (chunkA 32 (by decide) x0) (chunkB 32 (by decide) x1)
      (step (chunkA 16 (by decide) x0) (chunkB 16 (by decide) x1)
        (step (chunkA 0 (by decide) x0) (chunkB 0 (by decide) x1) k0_pay3))))

/-- What the run found in the output's staging buffer is that term: every load of the accumulator reads the whole
    of what the store just before it left, and the one store of the output covers its block. -/
theorem out_eq (c : Dev nD) (i : grid0.Coords) (a1 : Memref sig .tc .vmem S1x64x1764 .f32) (h1 : a1.IsWhole)
    (a2 : Memref sig .tc .vmem S1x25x64x1764 .f32) (h2 : a2.IsWhole) (a3 : Memref sig .tc .vmem S1x25x1764 .f32) (h3 : a3.IsWhole)
    (a4 : Memref sig .tc .vmem S25x1764 .f32) (h4 : a4.IsWhole)
    (x0 : Vec F S1x64x1764 .f32) (x1 : Vec F S1x25x64x1764 .f32) :
    out0_A_2 c i a1 h1 a2 h2 a3 h3 a4 h4 x0 x1 = blockOut x0 x1 := by
  unfold out0_A_2
  rw [View.read_writes_eq_canon _ _ _ (cover0_A_2 c i a1 h1 a2 h2 a3 h3 a4 h4 x0 x1)]
  unfold kernelRun0_A
  dsimp only
  sl_unfold_words
  rw [View.canon_unit_zero hz3]
  simp only [View.readCov_cons_toLoadRect, View.readAt_eq_ld, h1.read_unread, h2.read_unread]
  rfl

end Cert.KernelIdeal.Body

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.Spec.lean ====
/-
  The distance map, as one function of the two argument arrays.

  For a batch entry `b`, a support `s` and a pixel `(h, w)`, the result is the Euclidean distance over the 64
  channels between the query's feature vector at the pixel and the support's:
      dist b s h w = √( 0 + ∑ c, (x1[b,c,h,w] − x2[b,s,c,h,w])² ),
  and the result array lays the triples `(s, h, w)` out in one row of 25·42·42 = 44100 entries per batch entry.
  All arithmetic is on the extended reals. Two laws are proved here, neither of which needs the entries finite:
  a squared difference does not depend on the order of its operands, and an accumulator advanced by four chunks
  of sixteen terms ends at its start plus the sum of all 64 terms.
-/
import Idealize.ShloMosaic.PureOps.Ideal
import Idealize.ShloMosaic.PureOps.Ideal.Laws
import Idealize.ShloMosaic.Lib.ValueIdx
import proofs.«109841_j27324581937366_2_alg».proof.Proof.LibSumChunks

noncomputable section

open Idealize.ShloMosaic Idealize.ShloMosaic.ValueIdx
open scoped BigOperators

namespace Cert.Dist

/-- The squared difference of two extended reals. -/
def sqd (x y : EReal) : EReal := (x - y) * (x - y)

/-- A squared difference is symmetric, at the infinities too: `x − y` and `y − x` are opposite, or both `⊥` when
    `x = y` is an infinity, and a product of two equal factors does not see the sign. -/
theorem sqd_comm (x y : EReal) : sqd x y = sqd y x := by
  unfold sqd
  induction x using EReal.rec with
  | bot =>
    induction y using EReal.rec with
    | bot => rfl
    | coe r => simp [sub_eq_add_neg]
    | top => simp [sub_eq_add_neg]
  | coe q =>
    induction y using EReal.rec with
    | bot => simp [sub_eq_add_neg]
    | coe r =>
      rw [← EReal.coe_sub, ← EReal.coe_sub, ← EReal.coe_mul, ← EReal.coe_mul]
      exact congrArg _ (by ring)
    | top => simp [sub_eq_add_neg]
  | top =>
    induction y using EReal.rec with
    | bot => simp [sub_eq_add_neg]
    | coe r => simp [sub_eq_add_neg]
    | top => rfl

/-- Chunk `c` (of four) of a family of 64 terms: the sum of its sixteen terms `16 c, …, 16 c + 15`. -/
def chunk {M : Type*} [AddCommMonoid M] (f : Fin 64 → M) (c : Fin 4) : M :=
  ∑ k : Fin 16, f ⟨k.val + 16 * c.val, Cert.Lib.SumChunks.chunk_lt c k⟩

/-- An accumulator started at `z` and advanced by the four chunks in order ends at `z` plus the whole sum. -/
theorem acc_four {M : Type*} [AddCommMonoid M] (z : M) (f : Fin 64 → M) :
    (((z + chunk f 0) + chunk f 1) + chunk f 2) + chunk f 3 = z + ∑ c : Fin 64, f c := by
  rw [Cert.Lib.SumChunks.sum_chunks 4 16 rfl f, Fin.sum_univ_four]
  simp only [add_assoc]
  rfl

/-- The distance at batch entry `b`, support `s`, pixel `(h, w)`. -/
def dist (x1 : (⟨4, ![32, 64, 42, 42]⟩ : Shape).Idx → EReal) (x2 : (⟨5, ![32, 25, 64, 42, 42]⟩ : Shape).Idx → EReal)
    (b : Fin 32) (s : Fin 25) (h w : Fin 42) : EReal :=
  Ideal.sqrt (Ideal.ofBits .f32 0x00000000#32 + ∑ c : Fin 64, sqd (x1 (ix4 b c h w)) (x2 (ix5 b s c h w)))

/-- Position `f` of a result row is support `f / 1764`, -/
def sOf (f : Fin 44100) : Fin 25 := ⟨f.val / 1764, by have := f.isLt; omega⟩
/-- pixel row `f / 42 mod 42` -/
def hOf (f : Fin 44100) : Fin 42 := ⟨f.val / 42 % 42, Nat.mod_lt _ (by decide)⟩
/-- and pixel column `f mod 42`. -/
def wOf (f : Fin 44100) : Fin 42 := ⟨f.val % 42, Nat.mod_lt _ (by decide)⟩

/-- The result array: entry `(b, f)` is the distance at `b`, the support and the pixel that `f` names. -/
def G (x1 : (⟨4, ![32, 64, 42, 42]⟩ : Shape).Idx → EReal) (x2 : (⟨5, ![32, 25, 64, 42, 42]⟩ : Shape).Idx → EReal) :
    (⟨2, ![32, 44100]⟩ : Shape).Idx → EReal :=
  fun i => dist x1 x2 (i 0) (sOf (i 1)) (hOf (i 1)) (wOf (i 1))

theorem G_apply (x1 : (⟨4, ![32, 64, 42, 42]⟩ : Shape).Idx → EReal) (x2 : (⟨5, ![32, 25, 64, 42, 42]⟩ : Shape).Idx → EReal)
    (b : Fin 32) (f : Fin 44100) : G x1 x2 (ix2 b f) = dist x1 x2 b (sOf f) (hOf f) (wOf f) := rfl

end Cert.Dist

end
-- ==== Proof.Steps.lean ====
/-
  The body's output block read at an index, on the extended reals.

  At support `s` and flattened pixel `p` the block is the square root of the accumulator, and the accumulator
  after the four steps from zero is zero plus, chunk by chunk, the squared differences of the sixteen channels
  of the chunk; by the chunk law that is zero plus the sum over all 64 channels.
-/
import proofs.«109841_j27324581937366_2_alg».proof.Proof.Body
import proofs.«109841_j27324581937366_2_alg».proof.Proof.Spec
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.KernelIdeal.Steps

open Cert.KernelIdeal Cert.KernelIdeal.Gen Cert.KernelIdeal.Body Cert.Dist

/-- The sum over the channel axis of a [25, 16, 1764] array, read at `(s, p)`: the sum over the sixteen channels. -/
theorem laneSum_apply (v : FVec Ideal S25x16x1764 .f32) (h : S25x16x1764.Reduces [1] S25x1764) (hφ : FKind.Formats .f32)
    (hacc : (0x00000000#32 : BitVec (FTy.f32).bits) = FKind.add.neutral .f32 hφ) (s : Fin 25) (p : Fin 1764) :
    multiReduction .add [1] S25x1764 v 0x00000000#32 h hφ hacc (ix2 s p) = ∑ k : Fin 16, v (ix3 s k p) := by
  refine (Ideal.multiReduction_add_single v 0x00000000#32 h hφ hacc (ix2 s p)).trans ?_
  refine Finset.sum_congr rfl fun k _ => congrArg v ?_
  exact funext fun a => Fin.ext (by match a with | ⟨0, _⟩ => rfl | ⟨1, _⟩ => rfl | ⟨2, _⟩ => rfl)

/-- One step at `(s, p)`: the accumulator's entry plus the sum over the chunk's sixteen channels of the squared
    differences between the second input's entry (support `s`) and the first's. -/
theorem step_apply (a : Vec Ideal S1x16x1764 .f32) (b : Vec Ideal S1x25x16x1764 .f32) (acc : Vec Ideal S25x1764 .f32)
    (s : Fin 25) (p : Fin 1764) :
    step a b acc (ix2 s p)
      = acc (ix2 s p) + ∑ k : Fin 16, sqd (b (ix4 (0 : Fin 1) s k p)) (a (ix3 (0 : Fin 1) k p)) := by
  show k0_pay4 a b acc (ix2 s p) = _
  unfold k0_pay4
  refine (congrFun (shapeCast_self _ _) _).trans ?_
  refine congrArg (acc (ix2 s p) + ·) ?_
  refine (laneSum_apply _ _ _ _ s p).trans ?_
  refine Finset.sum_congr rfl fun k _ => ?_
  change sqd (shapeCast S25x16x1764 b _ (ix3 s k p)) (broadcastTo S25x16x1764 _ _ (ix3 s k p)) = _
  refine congrArg₂ sqd ?_ ?_
  · exact shapeCast_1abc_abc_apply b _ s k p
  · refine (broadcastTo_apply _ _ (ix3 s k p) (ix3 (0 : Fin 1) k p) (fun ax => ?_)).trans ?_
    · match ax with
      | ⟨0, _⟩ => rfl
      | ⟨1, _⟩ => show k.val = if (16 : Nat) = 1 then 0 else k.val; rw [if_neg (by decide)]
      | ⟨2, _⟩ => show p.val = if (1764 : Nat) = 1 then 0 else p.val; rw [if_neg (by decide)]
    · exact congrFun (shapeCast_shapeCast a _ _) _

/-- The accumulator starts at the zero word. -/
theorem zero_apply (i : S25x1764.Idx) : k0_pay3 (F := Ideal) i = Ideal.ofBits .f32 0x00000000#32 := by
  unfold k0_pay3
  exact congrFun (shapeCast_self _ _) _

/-- The output block is the accumulator's square root, entry by entry. -/
theorem root_apply (v : Vec Ideal S25x1764 .f32) (u : Fin 1) (s : Fin 25) (p : Fin 1764) :
    k0_pay2 v (ix3 u s p) = Ideal.sqrt (v (ix2 s p)) := by
  unfold k0_pay2
  exact shapeCast_ab_1ab_apply _ _ u s p

/-- A chunk of the first input block at channel `k` of the chunk is the block at channel `k + o`. -/
theorem chunkA_apply (o : Nat) (h : ∀ a, (![0, o, 0] : Fin 3 → Nat) a + S1x16x1764.size a ≤ S1x64x1764.size a)
    (x0 : Vec Ideal S1x64x1764 .f32) (k : Fin 16) (p : Fin 1764) (ho : k.val + o < 64) :
    chunkA o h x0 (ix3 (0 : Fin 1) k p) = x0 (ix3 (0 : Fin 1) (⟨k.val + o, ho⟩ : Fin 64) p) := by
  refine congrArg x0 (funext fun a => Fin.ext ?_)
  match a with
  | ⟨0, _⟩ => rfl
  | ⟨1, _⟩ => show o + 1 * k.val = k.val + o; omega
  | ⟨2, _⟩ => show 0 + 1 * p.val = p.val; omega

/-- A chunk of the second input block likewise, for each support. -/
theorem chunkB_apply (o : Nat) (h : ∀ a, (![0, 0, o, 0] : Fin 4 → Nat) a + S1x25x16x1764.size a ≤ S1x25x64x1764.size a)
    (x1 : Vec Ideal S1x25x64x1764 .f32) (s : Fin 25) (k : Fin 16) (p : Fin 1764) (ho : k.val + o < 64) :
    chunkB o h x1 (ix4 (0 : Fin 1) s k p) = x1 (ix4 (0 : Fin 1) s (⟨k.val + o, ho⟩ : Fin 64) p) := by
  refine congrArg x1 (funext fun a => Fin.ext ?_)
  match a with
  | ⟨0, _⟩ => rfl
  | ⟨1, _⟩ => show 0 + 1 * s.val = s.val; omega
  | ⟨2, _⟩ => show o + 1 * k.val = k.val + o; omega
  | ⟨3, _⟩ => show 0 + 1 * p.val = p.val; omega

/-- One step over chunk `c` adds that chunk of the 64 squared differences. -/
theorem step_chunk (c : Fin 4) (o : Nat) (hco : o = 16 * c.val)
    (hA : ∀ a, (![0, o, 0] : Fin 3 → Nat) a + S1x16x1764.size a ≤ S1x64x1764.size a)
    (hB : ∀ a, (![0, 0, o, 0] : Fin 4 → Nat) a + S1x25x16x1764.size a ≤ S1x25x64x1764.size a)
    (x0 : Vec Ideal S1x64x1764 .f32) (x1 : Vec Ideal S1x25x64x1764 .f32) (acc : Vec Ideal S25x1764 .f32)
    (s : Fin 25) (p : Fin 1764) :
    step (chunkA o hA x0) (chunkB o hB x1) acc (ix2 s p)
      = acc (ix2 s p) + chunk (fun k : Fin 64 => sqd (x1 (ix4 (0 : Fin 1) s k p)) (x0 (ix3 (0 : Fin 1) k p))) c := by
  subst hco
  rw [step_apply]
  refine congrArg (acc (ix2 s p) + ·) (Finset.sum_congr rfl fun k _ => ?_)
  have hk : k.val + 16 * c.val < 64 := Cert.Lib.SumChunks.chunk_lt c k
  rw [chunkA_apply _ _ x0 k p hk, chunkB_apply _ _ x1 s k p hk]

/-- The output block at `(s, p)`: the square root of zero plus the sum over the 64 channels of the squared
    differences. -/
theorem blockOut_apply (x0 : Vec Ideal S1x64x1764 .f32) (x1 : Vec Ideal S1x25x64x1764 .f32)
    (u : Fin 1) (s : Fin 25) (p : Fin 1764) :
    blockOut x0 x1 (ix3 u s p)
      = Ideal.sqrt (Ideal.ofBits .f32 0x00000000#32
          + ∑ k : Fin 64, sqd (x1 (ix4 (0 : Fin 1) s k p)) (x0 (ix3 (0 : Fin 1) k p))) := by
  unfold blockOut
  rw [root_apply, step_chunk 3 48 rfl, step_chunk 2 32 rfl, step_chunk 1 16 rfl, step_chunk 0 0 rfl, zero_apply, acc_four]

end Cert.KernelIdeal.Steps

end
-- ==== Proof.Blocks.lean ====
/-
  From the blocks to the array the pallas_call writes.

  Grid point `t` (one per batch entry) reads block `t` of the flattened query array [32, 64, 1764] and block `t`
  of the flattened support array [32, 25, 64, 1764], and writes block `t` of the result [32, 25, 1764]; each block
  is the whole slab of its batch entry. So the result array, entry by entry, is the body's function of the two
  flattened arrays at the entry's own batch index: `distFlat`.
-/
import proofs.«109841_j27324581937366_2_alg».proof.Proof.Steps
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Blocks

open Cert.KernelIdeal Cert.KernelIdeal.Gen Cert.KernelIdeal.Body Cert.Dist

variable (m : (ℓ : Loc nD τ sig) → Buf (Elt Ideal) ℓ) (ρ : Dev nD → PrngReg)

/-- The distance map over the flattened arrays: at `(b, s, p)` the square root of zero plus the sum over the
    channels of the squared differences between the support's entry and the query's. -/
def distFlat (X1 : S32x64x1764.Idx → EReal) (X2 : S32x25x64x1764.Idx → EReal) : S32x25x1764.Idx → EReal :=
  fun i => Ideal.sqrt (Ideal.ofBits .f32 0x00000000#32
    + ∑ k : Fin 64, sqd (X2 (ix4 (i 0) (i 1) k (i 2))) (X1 (ix3 (i 0) k (i 2))))

/-- A block whose entries are those of batch entry `b` of the two arrays gives batch entry `b` of the map. -/
theorem blockOut_eq (X1 : S32x64x1764.Idx → EReal) (X2 : S32x25x64x1764.Idx → EReal)
    (x0 : Vec Ideal S1x64x1764 .f32) (x1 : Vec Ideal S1x25x64x1764 .f32) (b : Fin 32)
    (h0 : ∀ (k : Fin 64) (p : Fin 1764), x0 (ix3 (0 : Fin 1) k p) = X1 (ix3 b k p))
    (h1 : ∀ (s : Fin 25) (k : Fin 64) (p : Fin 1764), x1 (ix4 (0 : Fin 1) s k p) = X2 (ix4 b s k p)) :
    blockOut x0 x1 = fun j : S1x25x1764.Idx => distFlat X1 X2 (ix3 b (j 1) (j 2)) := by
  funext j
  obtain ⟨u, s, p, rfl⟩ : ∃ (u : Fin 1) (s : Fin 25) (p : Fin 1764), j = ix3 u s p := ⟨j 0, j 1, j 2, eq_ix3 j⟩
  rw [Steps.blockOut_apply]
  simp only [h0, h1]
  rfl

/-- The printed index maps over the grid: every window's block index is the point's number on the batch axis and
    zero on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

theorem t_lt (t : Fin cfg0.N) : t.val < 32 := Nat.lt_of_lt_of_eq t.isLt N_0

/-- The first window's block at point `t` is batch entry `t` of the flattened query array. -/
theorem iblk0_apply (c : Dev nD) (t : Fin cfg0.N) (k : Fin 64) (p : Fin 1764) :
    (iblk m c 0 t : Vec Ideal S1x64x1764 .f32) (ix3 (0 : Fin 1) k p) = V m c main_v0 (ix3 (⟨t.val, t_lt t⟩ : Fin 32) k p) := by
  obtain ⟨e0, e1, e2, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 64 + 1 * k.val = k.val; omega
  | ⟨2, _⟩ => show win0_0.index t (2 : Fin 3) * 1764 + 1 * p.val = p.val; omega

/-- The second window's block at point `t` is batch entry `t` of the flattened support array. -/
theorem iblk1_apply (c : Dev nD) (t : Fin cfg0.N) (s : Fin 25) (k : Fin 64) (p : Fin 1764) :
    (iblk m c 1 t : Vec Ideal S1x25x64x1764 .f32) (ix4 (0 : Fin 1) s k p) = V m c main_v1 (ix4 (⟨t.val, t_lt t⟩ : Fin 32) s k p) := by
  obtain ⟨-, -, -, e0, e1, e2, e3, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 4) * 1 + 1 * 0 = t.val; omega
  | ⟨1, _⟩ => show win0_1.index t (1 : Fin 4) * 25 + 1 * s.val = s.val; omega
  | ⟨2, _⟩ => show win0_1.index t (2 : Fin 4) * 64 + 1 * k.val = k.val; omega
  | ⟨3, _⟩ => show win0_1.index t (3 : Fin 4) * 1764 + 1 * p.val = p.val; omega

/-- What point `t` writes back is block `t` of the map of the two flattened arrays as the region finds them. -/
theorem flushed_eq (c : Dev nD) (t : Fin cfg0.N) :
    (dats m 0 c).flushed 2 t
      = ((cfg0.win 2).blk t).view.read (Elt Ideal) (distFlat (V m c main_v0) (V m c main_v1)) := by
  obtain ⟨-, -, -, -, -, -, -, e0, e1, e2⟩ := idx_facts t
  show (cfg0.win 2).cut (grid0.coords t) ((dats m 0 c).after 2 t) = _
  rw [after0_2]
  unfold outsAt0
  rw [Body.out_eq]
  refine (blockOut_eq (V m c main_v0) (V m c main_v1) (iblk m c 0 t) (iblk m c 1 t) ⟨t.val, t_lt t⟩
    (iblk0_apply m c t) (iblk1_apply m c t)).trans ?_
  funext j
  show distFlat (V m c main_v0) (V m c main_v1) _ = distFlat (V m c main_v0) (V m c main_v1) (((cfg0.win 2).blk t).view.emb j)
  refine congrArg (distFlat (V m c main_v0) (V m c main_v1)) (funext fun a => Fin.ext ?_)
  have hj0 : (j 0).val < 1 := (j 0).isLt
  match a with
  | ⟨0, _⟩ => show t.val = win0_2.index t (0 : Fin 3) * 1 + 1 * (j 0).val; omega
  | ⟨1, _⟩ => show (j 1).val = win0_2.index t (1 : Fin 3) * 25 + 1 * (j 1).val; omega
  | ⟨2, _⟩ => show (j 2).val = win0_2.index t (2 : Fin 3) * 1764 + 1 * (j 2).val; omega

/-- An entry of the result array is in point `t`'s block iff each coordinate is in the block's range. -/
theorem mem_blk (t : Fin cfg0.N) (i : S32x25x1764.Idx) :
    i ∈ ((cfg0.win 2).blk t).view.set ↔ ∀ a : Fin 3, win0_2.index t a * S1x25x1764.size a ≤ (i a).val
      ∧ (i a).val < win0_2.index t a * S1x25x1764.size a + S1x25x1764.size a := by
  show i ∈ ((View.whole main_v2).slice (win0_2.rect t)).set ↔ _
  rw [View.set_slice_whole, Rect.mem_set_unit]
  exact Iff.rfl

/-- Every entry of the result array is in the block of the point of its batch index. -/
theorem cover (i : S32x25x1764.Idx) :
    ∃ t : Fin cfg0.N, (cfg0.win 2).flush t = true ∧ i ∈ ((cfg0.win 2).blk t).view.set := by
  have hi0 : (i 0).val < 32 := (i 0).isLt
  have hi1 : (i 1).val < 25 := (i 1).isLt
  have hi2 : (i 2).val < 1764 := (i 2).isLt
  let t : Fin cfg0.N := ⟨(i 0).val, Nat.lt_of_lt_of_eq hi0 N_0.symm⟩
  obtain ⟨-, -, -, -, -, -, -, e0, e1, e2⟩ := idx_facts t
  have ht : t.val = (i 0).val := rfl
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 25 ≤ (i 1).val ∧ (i 1).val < win0_2.index t (1 : Fin 3) * 25 + 25; omega
  | ⟨2, _⟩ => show win0_2.index t (2 : Fin 3) * 1764 ≤ (i 2).val ∧ (i 2).val < win0_2.index t (2 : Fin 3) * 1764 + 1764; omega

/-- The result array after the region: the map of the two flattened arrays as the region finds them. -/
theorem final (c : Dev nD) :
    (dats m 0 c).arrAt 2 cfg0.N = distFlat (V m c main_v0) (V m c main_v1) :=
  (dats m 0 c).arrAt_eq_of_cover 2 (distFlat (V m c main_v0) (V m c main_v1)) (fun t _ => flushed_eq m c t) cover

end Cert.KernelIdeal.Blocks

end
-- ==== Proof.Host.lean ====
/-
  The kernel's program around its pallas_call, and its result as the distance map.

  Before the region the program flattens the pixel axes of both arguments, `(h, w) ↦ 42 h + w`; after it, it
  flattens `(s, p) ↦ 1764 s + p`. So result entry `(b, f)` is the flattened map at
  `(b, f / 1764, f mod 1764)`, whose channel-`k` term reads the arguments at pixel
  `((f mod 1764) / 42, (f mod 1764) mod 42) = (f / 42 mod 42, f mod 42)`. The kernel subtracts the query from the
  support where the reference subtracts the support from the query: the squared differences agree.
-/
import proofs.«109841_j27324581937366_2_alg».proof.Proof.Blocks
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.KernelIdeal.Host

open Cert.KernelIdeal Cert.KernelIdeal.Gen Cert.KernelIdeal.Blocks Cert.Dist

variable (m : (ℓ : Loc nD τ sig) → Buf (Elt Ideal) ℓ) (ρ : Dev nD → PrngReg)

/-- The region finds the query with its pixel axes flattened, -/
theorem V_v0 (c : Dev nD) : (V m c main_v0 : S32x64x1764.Idx → EReal)
    = shapeCast S32x64x1764 (m ((c : Thread nD τ).loc main_arg0)) shapeCasts_S32x64x42x42_S32x64x1764 := by
  show StableHlo.after hostOps0 (fun b => m (c, b)) (Proc.devRef .tc main_v0) = _
  after_results
  rfl

/-- and the supports likewise. -/
theorem V_v1 (c : Dev nD) : (V m c main_v1 : S32x25x64x1764.Idx → EReal)
    = shapeCast S32x25x64x1764 (m ((c : Thread nD τ).loc main_arg1)) shapeCasts_S32x25x64x42x42_S32x25x64x1764 := by
  show StableHlo.after hostOps0 (fun b => m (c, b)) (Proc.devRef .tc main_v1) = _
  after_results
  rfl

/-- After the region the result buffer is the region's array with its last two axes flattened. -/
theorem tail_v3 (c : Dev nD) : Pipeline.afterTail₀ cfgs (dats m) 0 (V0 m) [hostOps1] c main_v3
    = shapeCast S32x44100 ((dats m 0 c).arrAt 2 cfg0.N) shapeCasts_S32x25x1764_S32x44100 := by
  unfold Pipeline.afterTail₀
  show StableHlo.after hostOps1 _ (Proc.devRef .tc main_v3) = _
  after_results
  funext i
  show shapeCast S32x44100 (Pipeline.withArrays (cfgs 0).spec c (V0 m c) (fun w => (dats m 0 c).arrAt w (cfgs 0).N)
    (Proc.devRef .tc main_v2)) shapeCasts_S32x25x1764_S32x44100 i = _
  exact congrArg (fun z : S32x25x1764.Idx → EReal => shapeCast S32x44100 z shapeCasts_S32x25x1764_S32x44100 i)
    (Pipeline.withArrays_arr spec0 launch0.win.arr_inj c (V0 m c) (fun w => (dats m 0 c).arrAt w (cfgs 0).N) 2)

/-- The flattened query at `(b, k, 42 h + w)` is the query at `(b, k, h, w)`. -/
theorem flatQuery (x : S32x64x42x42.Idx → EReal) (hc : S32x64x42x42.ShapeCasts S32x64x1764) (b : Fin 32) (k : Fin 64)
    (p : Fin 1764) (h w : Fin 42) (hp : p.val = h.val * 42 + w.val) :
    shapeCast S32x64x1764 x hc (ix3 b k p) = x (ix4 b k h w) :=
  shapeCast_apply x hc _ _ (by
    rw [Shape.rowMajor_val_four, Shape.rowMajor_val_three]
    show ((b.val * 64 + k.val) * 42 + h.val) * 42 + w.val = (b.val * 64 + k.val) * 1764 + p.val
    omega)

/-- The flattened supports at `(b, s, k, 42 h + w)` are the supports at `(b, s, k, h, w)`. -/
theorem flatSupport (x : S32x25x64x42x42.Idx → EReal) (hc : S32x25x64x42x42.ShapeCasts S32x25x64x1764) (b : Fin 32) (s : Fin 25)
    (k : Fin 64) (p : Fin 1764) (h w : Fin 42) (hp : p.val = h.val * 42 + w.val) :
    shapeCast S32x25x64x1764 x hc (ix4 b s k p) = x (ix5 b s k h w) :=
  shapeCast_apply x hc _ _ (by
    rw [Shape.rowMajor_val_five, Shape.rowMajor_val_four]
    show (((b.val * 25 + s.val) * 64 + k.val) * 42 + h.val) * 42 + w.val = ((b.val * 25 + s.val) * 64 + k.val) * 1764 + p.val
    omega)

/-- The flattened map of the flattened arguments, flattened once more, is the distance map. -/
theorem flat_eq (x1 : S32x64x42x42.Idx → EReal) (x2 : S32x25x64x42x42.Idx → EReal)
    (hq : S32x64x42x42.ShapeCasts S32x64x1764) (hs : S32x25x64x42x42.ShapeCasts S32x25x64x1764)
    (ht : S32x25x1764.ShapeCasts S32x44100) :
    shapeCast S32x44100 (distFlat (shapeCast S32x64x1764 x1 hq) (shapeCast S32x25x64x1764 x2 hs)) ht = G x1 x2 := by
  funext i
  obtain ⟨b, f, rfl⟩ : ∃ (b : Fin 32) (f : Fin 44100), i = ix2 b f := ⟨i 0, i 1, eq_ix2 i⟩
  have hf := f.isLt
  have hs' : (sOf f).val = f.val / 1764 := rfl
  have hh : (hOf f).val = f.val / 42 % 42 := rfl
  have hw : (wOf f).val = f.val % 42 := rfl
  rw [G_apply]
  refine (shapeCast_apply _ ht (ix2 b f) (ix3 b (sOf f) (⟨f.val % 1764, Nat.mod_lt _ (by decide)⟩ : Fin 1764)) ?_).trans ?_
  · rw [Shape.rowMajor_val_three, Shape.rowMajor_val_two]
    show (b.val * 25 + (sOf f).val) * 1764 + f.val % 1764 = b.val * 44100 + f.val
    omega
  · unfold distFlat Cert.Dist.dist
    refine congrArg Ideal.sqrt (congrArg (Ideal.ofBits .f32 0x00000000#32 + ·) (Finset.sum_congr rfl fun k _ => ?_))
    show sqd (shapeCast S32x25x64x1764 x2 hs (ix4 b (sOf f) k _)) (shapeCast S32x64x1764 x1 hq (ix3 b k _)) = _
    rw [sqd_comm, flatQuery x1 hq b k _ (hOf f) (wOf f) (by show f.val % 1764 = _; omega),
      flatSupport x2 hs b (sOf f) k _ (hOf f) (wOf f) (by show f.val % 1764 = _; omega)]

/-- The kernel's program runs, ends with its result at the distance map of its arguments, and leaves them
    unchanged. -/
theorem run : θ_run defs (onTc (τ := τ) (main (F := Ideal))) ⟨m, fun _ => 0, ρ⟩ fun r => ∀ c : Dev nD,
      r.2.mem ((c.tc : Thread nD τ).loc main_v3)
        = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        ((tail_v3 m c).trans (by rw [Blocks.final, V_v0, V_v1]; exact flat_eq _ _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Host

end
-- ==== Proof.Reference.lean ====
/-
  The reference computes the distance map.

  Its program broadcasts the query over the supports, subtracts the supports, squares, sums over the channel axis
  from zero, takes the square root and flattens `(s, h, w)` into one axis. Read at an entry `(b, f)`, stage by
  stage, that is `dist` at `b` and at the support and pixel `f` names.
-/
import proofs.«109841_j27324581937366_2_alg».proof.Proof.Gen.ReferenceIdeal.Read
import proofs.«109841_j27324581937366_2_alg».proof.Proof.Spec

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.Read Cert.Dist

/-- The flattened position `(b, f)` comes from `(b, f / 1764, f / 42 mod 42, f mod 42)`. -/
theorem unflatten (b : Fin 32) (f : Fin 44100) : idx_main_v6 (ix2 b f) = ix4 b (sOf f) (hOf f) (wOf f) := by
  have hb := b.isLt
  have hf := f.isLt
  refine funext fun a => Fin.ext ?_
  match a with
  | ⟨0, _⟩ => show (b.val * 44100 + f.val) / 44100 = b.val; omega
  | ⟨1, _⟩ => show (b.val * 44100 + f.val) / 1764 % 25 = f.val / 1764; omega
  | ⟨2, _⟩ => show (b.val * 44100 + f.val) / 42 % 42 = f.val / 42 % 42; omega
  | ⟨3, _⟩ => show (b.val * 44100 + f.val) % 42 = f.val % 42; omega

/-- Channel `k` of the reduced axis at `(b, s, h, w)`. -/
theorem channel (b : Fin 32) (s : Fin 25) (h w : Fin 42) (k : Fin 64) :
    idx_main_v4 (ix4 b s h w) k = ix5 b s k h w :=
  funext fun a => Fin.ext (by match a with | ⟨0, _⟩ => rfl | ⟨1, _⟩ => rfl | ⟨2, _⟩ => rfl | ⟨3, _⟩ => rfl | ⟨4, _⟩ => rfl)

/-- The query broadcast over the supports is read at the query's own entry. -/
theorem query (b : Fin 32) (s : Fin 25) (k : Fin 64) (h w : Fin 42) :
    idx_main_v0 (idx_main_v1 (ix5 b s k h w)) = ix4 b k h w :=
  funext fun a => Fin.ext (by match a with | ⟨0, _⟩ => rfl | ⟨1, _⟩ => rfl | ⟨2, _⟩ => rfl | ⟨3, _⟩ => rfl)

/-- The reference's result, as a function of the two argument arrays, is the distance map. -/
theorem ref_eq (x0 : S32x64x42x42.Idx → EReal) (x1 : S32x25x64x42x42.Idx → EReal) :
    val_main_v6 (F := Ideal) x0 x1 = G x0 x1 := by
  funext i
  obtain ⟨b, f, rfl⟩ : ∃ (b : Fin 32) (f : Fin 44100), i = ix2 b f := ⟨i 0, i 1, eq_ix2 i⟩
  rw [G_apply, val_main_v6_apply, val_main_v5_apply, unflatten, val_main_v4_apply]
  unfold Cert.Dist.dist
  refine congrArg Ideal.sqrt (congrArg (Ideal.ofBits .f32 0x00000000#32 + ·) (Finset.sum_congr rfl fun k _ => ?_))
  rw [channel, val_main_v3_apply, val_main_v2_apply, val_main_v1_apply, val_main_v0_apply, query]
  rfl

end Cert.ReferenceIdeal.RefValue

end
-- ==== Proof.lean ====
/-
  The certificate's five claims.

  The kernel computes, per batch entry, support and pixel, the Euclidean distance over 64 channels between a query
  feature map and a support feature map, accumulating the squared differences in four chunks of sixteen channels;
  the reference computes the same distance in one sum, subtracting in the opposite order. On the extended reals
  both are `√(0 + ∑ c (x1 − x2)²)` (Proof/Spec.lean): the squared difference is symmetric and a chunked
  accumulation is the whole sum, so the two programs, run from memories that agree on the arguments, end with equal
  results. Neither law needs the entries finite. Each program's run ends with its arguments unchanged; the kernel's
  idealization rewrote nothing.
-/
import proofs.«109841_j27324581937366_2_alg».proof.Defs
import proofs.«109841_j27324581937366_2_alg».proof.Proof.Gen.Kernel
import proofs.«109841_j27324581937366_2_alg».proof.Proof.Gen.Kernel.Skeleton
import proofs.«109841_j27324581937366_2_alg».proof.Proof.Gen.Kernel.Launch
import proofs.«109841_j27324581937366_2_alg».proof.Proof.Gen.Kernel.Points
import proofs.«109841_j27324581937366_2_alg».proof.Proof.Gen.Kernel.Frame
import proofs.«109841_j27324581937366_2_alg».proof.Proof.Gen.KernelIdeal
import proofs.«109841_j27324581937366_2_alg».proof.Proof.Gen.KernelIdeal.Skeleton
import proofs.«109841_j27324581937366_2_alg».proof.Proof.Gen.KernelIdeal.Launch
import proofs.«109841_j27324581937366_2_alg».proof.Proof.Gen.KernelIdeal.Points
import proofs.«109841_j27324581937366_2_alg».proof.Proof.Gen.KernelIdeal.Frame
import proofs.«109841_j27324581937366_2_alg».proof.Proof.Gen.ReferenceIdeal
import proofs.«109841_j27324581937366_2_alg».proof.Proof.Gen.Pre_finite_inputs
import proofs.«109841_j27324581937366_2_alg».proof.Proof.Gen.ReferenceIdeal.Run
import proofs.«109841_j27324581937366_2_alg».proof.Proof.Gen.ReferenceIdeal.Read
import proofs.«109841_j27324581937366_2_alg».proof.Proof.Host
import proofs.«109841_j27324581937366_2_alg».proof.Proof.Reference
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the kernel's own text read on the extended reals: nothing to restate. -/
theorem preserves : Cert.preserves_Kernel_KernelIdeal := trivial

/-- From memories agreeing on the arguments both programs end at the distance map of those arguments. -/
theorem algebraic : Cert.algebraic_KernelIdeal_ReferenceIdeal := by
  intro m ρ m' ρ' _ hagree
  refine ⟨fun c => Cert.Dist.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
